-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x4096x4096 .f32) (main_arg1 : IVec S4x4096 32) (main_arg2 : FVec F S4096x4096 .f32) (main_arg3 : FVec F S4096 .f32) (main_arg4 : FVec F S8x4096 .f32) (main_arg5 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_v13 main_v16
-- ==== Kernel.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S16384x4096 : Shape := ⟨2, ![16384, 4096]⟩
abbrev S_ : Shape := ⟨0, ![]⟩
abbrev S16384x1 : Shape := ⟨2, ![16384, 1]⟩
abbrev S16384x8 : Shape := ⟨2, ![16384, 8]⟩
abbrev S1x4096 : Shape := ⟨2, ![1, 4096]⟩
abbrev S1024x1024 : Shape := ⟨2, ![1024, 1024]⟩
abbrev S1024x8 : Shape := ⟨2, ![1024, 8]⟩
abbrev S1x1024 : Shape := ⟨2, ![1, 1024]⟩

abbrev nBuf : Space → Nat
  | .hbm => 23
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16384x4096, .f32⟩
  | .hbm, ⟨7, _⟩ => ⟨S_, .i32⟩
  | .hbm, ⟨8, _⟩ => ⟨S4x4096, .i32⟩
  | .hbm, ⟨9, _⟩ => ⟨S4x4096, .i1⟩
  | .hbm, ⟨10, _⟩ => ⟨S4x4096, .f32⟩
  | .hbm, ⟨11, _⟩ => ⟨S16384x1, .f32⟩
  | .hbm, ⟨12, _⟩ => ⟨S16384x8, .f32⟩
  | .hbm, ⟨13, _⟩ => ⟨S_, .f32⟩
  | .hbm, ⟨14, _⟩ => ⟨S16384x8, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S16384x4096, .bf16⟩
  | .hbm, ⟨19, _⟩ => ⟨S4096x4096, .bf16⟩
  | .hbm, ⟨20, _⟩ => ⟨S1x4096, .f32⟩
  | .hbm, ⟨21, _⟩ => ⟨S16384x4096, .f32⟩
  | .hbm, ⟨22, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | .local _ .vmem, ⟨7, _⟩ => ⟨S1024x8, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  bcast_S_S4x4096 : S_.BroadcastsInDim S4x4096 (![] : Fin 0 → Fin S4x4096.rank)
  shapeCasts_S4x4096_S16384x1 : S4x4096.ShapeCasts S16384x1
  bcast_S_S16384x8 : S_.BroadcastsInDim S16384x8 (![] : Fin 0 → Fin S16384x8.rank)
  bcast_S16384x1_S16384x8_0_1 : S16384x1.BroadcastsInDim S16384x8 (![0, 1] : Fin 2 → Fin S16384x8.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S16384x4096_S8x4096_S16384x8_1_1_0_0_n_n_wf : DotDims.WF S16384x4096 S8x4096 S16384x8 [1] [1] [0] [0] [] []
  dot_S1024x1024_S1024x1024_S1024x1024_1_1_0_0_n_n_wf : DotDims.WF S1024x1024 S1024x1024 S1024x1024 [1] [1] [0] [0] [] []
  dot_S1024x8_S1024x8_S1024x1024_1_1_0_0_n_n_wf : DotDims.WF S1024x8 S1024x8 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S16384x8.size a
  hwx0_2 : ∀ i : grid0.Coords, EltTy.bits .f32 = 32 ∨ (Rect.block (s := S16384x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S16384x4096_S8x4096_S16384x8_1_1_0_0_n_n : DotDims S16384x4096 S8x4096 S16384x8 where
  lhsContracting := [1]
  rhsContracting := [1]
  lhsNonContracting := [0]
  rhsNonContracting := [0]
  lhsBatch := []
  rhsBatch := []
  wf := dot_S16384x4096_S8x4096_S16384x8_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S4x4096x8 : Shape := ⟨3, ![4, 4096, 8]⟩
abbrev S_ : Shape := ⟨0, ![]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4096x4096, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x8, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .i32⟩
  | .hbm, ⟨16, _⟩ => ⟨S4x4096, .i32⟩
  | .hbm, ⟨17, _⟩ => ⟨S4x4096, .i1⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Cases.lean ====
/-
  What one grid point leaves behind, case by case, for any float instance.

  The grid is 16 × 4 × 4 with the contraction axis innermost: a point's position modulo 4 is its contraction step.
  The accumulator is a 1024 × 1024 tile kept across the four steps of one output tile:
    step 0      : it is reset to the zero tile and the first partial product is added    (`acc_first`),
    steps 1, 2  : the step's partial product is added to what the step before left        (`acc_middle`),
    step 3      : the same, and the output tile is the finished accumulator plus the bias row plus the rank-8
                  product                                                                  (`acc_last`, `tile_last`).
  Each statement reads the contents the body's covering stores leave as the stored value itself: every load and store
  of the body goes through the whole buffer at offset zero.
-/
import proofs.«120189_j25752623907395_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- Steps 1 and 2: the accumulator holding `acc` ends at `acc + x·wᵀ` of the step's two operand tiles. -/
theorem acc_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x8 .f32) (h5 : a5.IsWhole) (a6 : Memref sig .tc .vmem S1024x8 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 : Vec F S1024x1024 .bf16) (x1 : Vec F S1024x1024 .bf16) (x2 : Vec F S1024x8 .f32) (x3 : Vec F S1024x8 .f32) (x4 : Vec F S1x1024 .f32) (acc : Vec F S1024x1024 .f32) :
    sout0_B_0 c i a3 h3 a4 h4 a5 h5 a6 h6 a7 h7 a8 h8 a9 h9 hc0 hc1 x0 x1 x2 x3 x4 acc = k0_pay2 x0 x1 acc := by
  unfold sout0_B_0
  rw [View.read_writes_eq_canon _ _ _ (scover0_B_0 c i a3 h3 a4 h4 a5 h5 a6 h6 a7 h7 a8 h8 a9 h9 hc0 hc1 x0 x1 x2 x3 x4 acc)]
  unfold kernelRun0_B
  dsimp only
  rw [View.canon_unit_zero hz]
  simp only [View.readAt_eq_ld, h3.read_unread, h4.read_unread, h9.read_unread, View.ld_unit_zero (S := S1024x1024) hz]

/-- Step 0: the accumulator is reset, read back, and ends at `0 + x·wᵀ` whatever it held. -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x8 .f32) (h5 : a5.IsWhole) (a6 : Memref sig .tc .vmem S1024x8 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 : Vec F S1024x1024 .bf16) (x1 : Vec F S1024x1024 .bf16) (x2 : Vec F S1024x8 .f32) (x3 : Vec F S1024x8 .f32) (x4 : Vec F S1x1024 .f32) :
    sout0_A_0 c i a3 h3 a4 h4 a5 h5 a6 h6 a7 h7 a8 h8 a9 h9 hc0 hc1 x0 x1 x2 x3 x4 = k0_pay2 x0 x1 (k0_pay1 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Step 3, the accumulator: as in the middle steps. -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x8 .f32) (h5 : a5.IsWhole) (a6 : Memref sig .tc .vmem S1024x8 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x8 .f32) (x3 : Vec F S1024x8 .f32) (x4 : Vec F S1x1024 .f32) (acc : Vec F S1024x1024 .f32) :
    sout0_C_0 c i a3 h3 a4 h4 a5 h5 a6 h6 a7 h7 a8 h8 a9 h9 hc0 hc1 x0 x1 x2 x3 x4 acc = k0_pay2 x0 x1 acc := by
  unfold sout0_C_0
  rw [View.read_writes_eq_canon _ _ _ (scover0_C_0 c i a3 h3 a4 h4 a5 h5 a6 h6 a7 h7 a8 h8 a9 h9 hc0 hc1 x0 x1 x2 x3 x4 acc)]
  unfold kernelRun0_C
  dsimp only
  sl_unfold_words
  rw [View.canon_unit_zero hz]
  simp only [View.readAt_eq_ld, h3.read_unread, h4.read_unread, h9.read_unread, View.ld_unit_zero (S := S1024x1024) hz]

/-- Step 3, the output tile: the finished accumulator (read back after this step's addition), plus the bias row
    broadcast down the rows, plus the product of the two rank-8 tiles. -/
theorem tile_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x8 .f32) (h5 : a5.IsWhole) (a6 : Memref sig .tc .vmem S1024x8 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x8 .f32) (x3 : Vec F S1024x8 .f32) (x4 : Vec F S1x1024 .f32) (acc : Vec F S1024x1024 .f32) :
    out0_C_5 c i a3 h3 a4 h4 a5 h5 a6 h6 a7 h7 a8 h8 a9 h9 hc0 hc1 x0 x1 x2 x3 x4 acc = k0_pay3 x2 x3 (k0_pay2 x0 x1 acc) x4 := by
  unfold out0_C_5
  rw [View.read_writes_eq_canon _ _ _ (cover0_C_5 c i a3 h3 a4 h4 a5 h5 a6 h6 a7 h7 a8 h8 a9 h9 hc0 hc1 x0 x1 x2 x3 x4 acc)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h7.read_unread,
    h9.read_unread, View.ld_unit_zero (S := S1024x1024) hz, View.ld_unit_zero (S := S1024x8) hz,
    View.ld_unit_zero (S := S1x1024) hz]

end Cert.KernelIdeal.Tile

end
-- ==== Proof.Steps.lean ====
/-
  The accumulation across the four contraction steps of one output tile.

  Points are numbered row-major over the 16 × 4 × 4 grid, so the four steps of an output tile are four consecutive
  points `t-3, t-2, t-1, t` with `t ≡ 3 (mod 4)`. What the output's buffer holds after the last of them is the step-3
  expression over the accumulator built by the three steps before: the zero tile plus the four partial products,
  added in step order.
-/
import proofs.«120189_j25752623907395_2_alg».proof.Proof.Cases

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]
variable (m : (ℓ : Loc nD τ sig) → Buf (Elt F) ℓ)

/-- The components of a pair that is given as an explicit pair. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

/-- The point before `t` (the point itself at the grid's first point, which is never asked for). -/
abbrev prev (t : Fin cfg0.N) : Fin cfg0.N := ⟨t.val - 1, Nat.lt_of_le_of_lt (Nat.sub_le _ _) t.isLt⟩

/-- After a step-0 point the accumulator is `0 + x·wᵀ` of that point's operand tiles. -/
theorem acc_step0 (c : Dev nD) (t : Fin cfg0.N) (h : t.val % 4 = 0) :
    (outsAt0 m c t.val t.isLt).2 = k0_pay2 (iblk m c 0 t) (iblk m c 1 t) (k0_pay1 (F := F)) :=
  (snd_of_eq (outsAt0_A m c t h (by omega))).trans
    (acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (fun h' => (by omega : ¬t.val % 4 = 3) ((hcond0_1 t).mp h'))
      (iblk m c 0 t) (iblk m c 1 t) (iblk m c 2 t) (iblk m c 3 t) (iblk m c 4 t))

/-- After any later step it is what the point before left, plus this point's partial product. -/
theorem acc_step (c : Dev nD) (t : Fin cfg0.N) (h : ¬t.val % 4 = 0) :
    (outsAt0 m c t.val t.isLt).2
      = k0_pay2 (iblk m c 0 t) (iblk m c 1 t) (outsAt0 m c (prev t).val (prev t).isLt).2 := by
  by_cases h3 : t.val % 4 = 3
  · exact (snd_of_eq (outsAt0_C m c t h h3)).trans
      (acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h ((hcond0_0 t).mp h')) ((hcond0_1 t).mpr h3)
        (iblk m c 0 t) (iblk m c 1 t) (iblk m c 2 t) (iblk m c 3 t) (iblk m c 4 t) (outsAt0 m c (prev t).val (prev t).isLt).2)
  · exact (snd_of_eq (outsAt0_B m c t h h3)).trans
      (acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h ((hcond0_0 t).mp h')) (fun h' => h3 ((hcond0_1 t).mp h'))
        (iblk m c 0 t) (iblk m c 1 t) (iblk m c 2 t) (iblk m c 3 t) (iblk m c 4 t) (outsAt0 m c (prev t).val (prev t).isLt).2)

/-- After a step-3 point the output's buffer holds the step-3 expression over the accumulator as this point leaves it. -/
theorem tile_step3 (c : Dev nD) (t : Fin cfg0.N) (h3 : t.val % 4 = 3) :
    (outsAt0 m c t.val t.isLt).1
      = k0_pay3 (iblk m c 2 t) (iblk m c 3 t)
          (k0_pay2 (iblk m c 0 t) (iblk m c 1 t) (outsAt0 m c (prev t).val (prev t).isLt).2) (iblk m c 4 t) :=
  (fst_of_eq (outsAt0_C m c t (by omega) h3)).trans
    (tile_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => (by omega : ¬t.val % 4 = 0) ((hcond0_0 t).mp h')) ((hcond0_1 t).mpr h3)
      (iblk m c 0 t) (iblk m c 1 t) (iblk m c 2 t) (iblk m c 3 t) (iblk m c 4 t) (outsAt0 m c (prev t).val (prev t).isLt).2)

/-- THE OUTPUT TILE: after the last of an output tile's four points the buffer holds the bias row and the rank-8
    product added to `(((0 + P(t-3)) + P(t-2)) + P(t-1)) + P(t)`, `P` a point's partial product. -/
theorem tile_at_last (c : Dev nD) (t : Fin cfg0.N) (h3 : t.val % 4 = 3) :
    (outsAt0 m c t.val t.isLt).1
      = k0_pay3 (iblk m c 2 t) (iblk m c 3 t)
          (k0_pay2 (iblk m c 0 t) (iblk m c 1 t)
            (k0_pay2 (iblk m c 0 (prev t)) (iblk m c 1 (prev t))
              (k0_pay2 (iblk m c 0 (prev (prev t))) (iblk m c 1 (prev (prev t)))
                (k0_pay2 (iblk m c 0 (prev (prev (prev t)))) (iblk m c 1 (prev (prev (prev t)))) (k0_pay1 (F := F))))))
          (iblk m c 4 t) := by
  have e0 := tile_step3 m c t h3
  have e1 := acc_step m c (prev t) (by show ¬(t.val - 1) % 4 = 0; omega)
  have e2 := acc_step m c (prev (prev t)) (by show ¬(t.val - 1 - 1) % 4 = 0; omega)
  have e3 := acc_step0 m c (prev (prev (prev t))) (by show (t.val - 1 - 1 - 1) % 4 = 0; omega)
  rw [e0, e1, e2, e3]

end Cert.KernelIdeal.Tile

end
-- ==== Proof.PayIdx.lean ====
/-
  The body's three stored values read at one index of the 1024 × 1024 tile, over the extended reals.

  A change of float format is the identity there and a same-shape cast is the identity everywhere, so
    the reset value is `0`;
    a contraction step leaves            `acc[p,q] + ∑ₗ x[p,l] · w[q,l]`                    (1024 terms);
    the last step's output value is      `(acc[p,q] + bias[0,q]) + ∑ᵣ u[p,r] · v[q,r]`      (8 terms).
  Both products contract the SECOND axis of both operands (`x · wᵀ`).
-/
import proofs.«120189_j25752623907395_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.Tile

open Cert.KernelIdeal Cert.KernelIdeal.Gen Idealize.ShloMosaic.ValueIdx

/-- For the bigdot: the left operand is read at the output's row and the contraction index, -/
theorem bigdot_lhs0 (j : S1024x1024.Idx) (k : dot_S1024x1024_S1024x1024_S1024x1024_1_1_0_0_n_n.contr.Idx) : (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem bigdot_lhs1 (j : S1024x1024.Idx) (k : dot_S1024x1024_S1024x1024_S1024x1024_1_1_0_0_n_n.contr.Idx) : (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- and the right operand at the output's COLUMN and the contraction index: the product is `x · wᵀ`. -/
theorem bigdot_rhs0 (j : S1024x1024.Idx) (k : dot_S1024x1024_S1024x1024_S1024x1024_1_1_0_0_n_n.contr.Idx) : (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem bigdot_rhs1 (j : S1024x1024.Idx) (k : dot_S1024x1024_S1024x1024_S1024x1024_1_1_0_0_n_n.contr.Idx) : (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The bigdot into the zero tile, at row `p` and column `q`: `∑ₗ x[p,l] · w[q,l]`. -/
theorem bigdot_apply {φ₁ φ₂ : FTy} (x : FVec Ideal S1024x1024 φ₁) (w : FVec Ideal S1024x1024 φ₂) (p q : Fin 1024) :
    FloatOps.matmul dot_S1024x1024_S1024x1024_S1024x1024_1_1_0_0_n_n none x w (constant S1024x1024 .f32 0x00000000#32) (ix2 p q)
      = ∑ l : Fin 1024, x (ix2 p l) * w (ix2 q l) := by
  rw [Ideal.matmul_constant_zero_apply, ← Equiv.sum_comp (ValueIdx.contrEquiv1 dot_S1024x1024_S1024x1024_S1024x1024_1_1_0_0_n_n 1024 rfl rfl).symm]
  refine Finset.sum_congr rfl fun l _ => ?_
  have hl := ValueIdx.contrEquiv1_symm_val dot_S1024x1024_S1024x1024_S1024x1024_1_1_0_0_n_n 1024 rfl rfl l
  have el : dot_S1024x1024_S1024x1024_S1024x1024_1_1_0_0_n_n.lhsIdx (ix2 p q) ((ValueIdx.contrEquiv1 dot_S1024x1024_S1024x1024_S1024x1024_1_1_0_0_n_n 1024 rfl rfl).symm l) = ix2 p l := funext fun a => Fin.ext (by
    match a with
    | ⟨0, _⟩ => exact bigdot_lhs0 _ _
    | ⟨1, _⟩ => exact (bigdot_lhs1 _ _).trans hl)
  have er : dot_S1024x1024_S1024x1024_S1024x1024_1_1_0_0_n_n.rhsIdx (ix2 p q) ((ValueIdx.contrEquiv1 dot_S1024x1024_S1024x1024_S1024x1024_1_1_0_0_n_n 1024 rfl rfl).symm l) = ix2 q l := funext fun a => Fin.ext (by
    match a with
    | ⟨0, _⟩ => exact bigdot_rhs0 _ _
    | ⟨1, _⟩ => exact (bigdot_rhs1 _ _).trans hl)
  rw [el, er]

/-- For the rankdot: the left operand is read at the output's row and the contraction index, -/
theorem rankdot_lhs0 (j : S1024x1024.Idx) (k : dot_S1024x8_S1024x8_S1024x1024_1_1_0_0_n_n.contr.Idx) : (dot_S1024x8_S1024x8_S1024x1024_1_1_0_0_n_n.lhsIdx j k 0).val = (j 0).val := by
  unfold DotDims.lhsIdx
  rw [dif_neg (show ¬(0 : Fin S1024x8.rank) ∈ dot_S1024x8_S1024x8_S1024x1024_1_1_0_0_n_n.lhsBatch by decide), dif_pos (show (0 : Fin S1024x8.rank) ∈ dot_S1024x8_S1024x8_S1024x1024_1_1_0_0_n_n.lhsNonContracting by decide)]
  rfl
theorem rankdot_lhs1 (j : S1024x1024.Idx) (k : dot_S1024x8_S1024x8_S1024x1024_1_1_0_0_n_n.contr.Idx) : (dot_S1024x8_S1024x8_S1024x1024_1_1_0_0_n_n.lhsIdx j k 1).val = (k ⟨0, by decide⟩).val :=
  dot_S1024x8_S1024x8_S1024x1024_1_1_0_0_n_n.lhsIdx_val_of_single rfl j k
/-- and the right operand at the output's COLUMN and the contraction index: the product is `x · wᵀ`. -/
theorem rankdot_rhs0 (j : S1024x1024.Idx) (k : dot_S1024x8_S1024x8_S1024x1024_1_1_0_0_n_n.contr.Idx) : (dot_S1024x8_S1024x8_S1024x1024_1_1_0_0_n_n.rhsIdx j k 0).val = (j 1).val := by
  unfold DotDims.rhsIdx
  rw [dif_neg (show ¬(0 : Fin S1024x8.rank) ∈ dot_S1024x8_S1024x8_S1024x1024_1_1_0_0_n_n.rhsBatch by decide), dif_pos (show (0 : Fin S1024x8.rank) ∈ dot_S1024x8_S1024x8_S1024x1024_1_1_0_0_n_n.rhsNonContracting by decide)]
  rfl
theorem rankdot_rhs1 (j : S1024x1024.Idx) (k : dot_S1024x8_S1024x8_S1024x1024_1_1_0_0_n_n.contr.Idx) : (dot_S1024x8_S1024x8_S1024x1024_1_1_0_0_n_n.rhsIdx j k 1).val = (k ⟨0, by decide⟩).val :=
  dot_S1024x8_S1024x8_S1024x1024_1_1_0_0_n_n.rhsIdx_val_of_single rfl j k

/-- The rankdot into the zero tile, at row `p` and column `q`: `∑ₗ x[p,l] · w[q,l]`. -/
theorem rankdot_apply {φ₁ φ₂ : FTy} (x : FVec Ideal S1024x8 φ₁) (w : FVec Ideal S1024x8 φ₂) (p q : Fin 1024) :
    FloatOps.matmul dot_S1024x8_S1024x8_S1024x1024_1_1_0_0_n_n none x w (constant S1024x1024 .f32 0x00000000#32) (ix2 p q)
      = ∑ l : Fin 8, x (ix2 p l) * w (ix2 q l) := by
  rw [Ideal.matmul_constant_zero_apply, ← Equiv.sum_comp (ValueIdx.contrEquiv1 dot_S1024x8_S1024x8_S1024x1024_1_1_0_0_n_n 8 rfl rfl).symm]
  refine Finset.sum_congr rfl fun l _ => ?_
  have hl := ValueIdx.contrEquiv1_symm_val dot_S1024x8_S1024x8_S1024x1024_1_1_0_0_n_n 8 rfl rfl l
  have el : dot_S1024x8_S1024x8_S1024x1024_1_1_0_0_n_n.lhsIdx (ix2 p q) ((ValueIdx.contrEquiv1 dot_S1024x8_S1024x8_S1024x1024_1_1_0_0_n_n 8 rfl rfl).symm l) = ix2 p l := funext fun a => Fin.ext (by
    match a with
    | ⟨0, _⟩ => exact rankdot_lhs0 _ _
    | ⟨1, _⟩ => exact (rankdot_lhs1 _ _).trans hl)
  have er : dot_S1024x8_S1024x8_S1024x1024_1_1_0_0_n_n.rhsIdx (ix2 p q) ((ValueIdx.contrEquiv1 dot_S1024x8_S1024x8_S1024x1024_1_1_0_0_n_n 8 rfl rfl).symm l) = ix2 q l := funext fun a => Fin.ext (by
    match a with
    | ⟨0, _⟩ => exact rankdot_rhs0 _ _
    | ⟨1, _⟩ => exact (rankdot_rhs1 _ _).trans hl)
  rw [el, er]

/-- The reset value is the zero tile. -/
theorem zero_tile_apply (j : S1024x1024.Idx) : k0_pay1 (F := Ideal) j = 0 := by
  unfold k0_pay1
  simp only [shapeCast_self]
  exact Ideal.ofBits_zero_f32

/-- A contraction step at `(p, q)`. -/
theorem step_apply (x w : Vec Ideal S1024x1024 .bf16) (acc : Vec Ideal S1024x1024 .f32) (p q : Fin 1024) :
    k0_pay2 x w acc (ix2 p q) = acc (ix2 p q) + ∑ l : Fin 1024, x (ix2 p l) * w (ix2 q l) := by
  unfold k0_pay2
  simp only [shapeCast_self]
  exact congrArg (acc (ix2 p q) + ·) (bigdot_apply x w p q)

/-- The last step's output value at `(p, q)`. -/
theorem finish_apply (u v : Vec Ideal S1024x8 .f32) (acc : Vec Ideal S1024x1024 .f32) (bias : Vec Ideal S1x1024 .f32)
    (p q : Fin 1024) :
    k0_pay3 u v acc bias (ix2 p q)
      = (acc (ix2 p q) + bias (ix2 (0 : Fin 1) q)) + ∑ r : Fin 8, u (ix2 p r) * v (ix2 q r) := by
  unfold k0_pay3
  simp only [shapeCast_self]
  have hb := broadcastTo_1b_ab_apply (a := 1024) bias broadcasts_S1x1024_S1024x1024 p q
  have hd := rankdot_apply (truncf .bf16 u bitsLt_bf16_f32) (truncf .bf16 v bitsLt_bf16_f32) p q
  exact (congrArg₂ (· + ·) (congrArg (acc (ix2 p q) + ·) hb) hd)

/-- THE OUTPUT TILE at `(p, q)`, over any operand tiles of the four steps (`xₛ`, `wₛ` the tiles of step `s`):
    `((((0 + P₀) + P₁) + P₂) + P₃ + bias[0,q]) + ∑ᵣ u[p,r] · v[q,r]`, `Pₛ = ∑ₗ xₛ[p,l] · wₛ[q,l]`. -/
theorem tile_value (x0 w0 x1 w1 x2 w2 x3 w3 : Vec Ideal S1024x1024 .bf16) (u v : Vec Ideal S1024x8 .f32)
    (bias : Vec Ideal S1x1024 .f32) (p q : Fin 1024) :
    k0_pay3 u v (k0_pay2 x3 w3 (k0_pay2 x2 w2 (k0_pay2 x1 w1 (k0_pay2 x0 w0 (k0_pay1 (F := Ideal)))))) bias (ix2 p q)
      = (((((0 + ∑ l : Fin 1024, x0 (ix2 p l) * w0 (ix2 q l)) + ∑ l : Fin 1024, x1 (ix2 p l) * w1 (ix2 q l))
            + ∑ l : Fin 1024, x2 (ix2 p l) * w2 (ix2 q l)) + ∑ l : Fin 1024, x3 (ix2 p l) * w3 (ix2 q l))
          + bias (ix2 (0 : Fin 1) q)) + ∑ r : Fin 8, u (ix2 p r) * v (ix2 q r) := by
  rw [finish_apply, step_apply, step_apply, step_apply, step_apply, zero_tile_apply]

end Cert.KernelIdeal.Tile

end
-- ==== Proof.Blocks.lean ====
/-
  Where each window's block sits in its array.

  Point `t` of the row-major 16 × 4 × 4 grid has coordinates `(i, j, s) = (t / 16, t / 4 % 4, t % 4)`: row tile `i`,
  column tile `j`, contraction step `s`. The block indices of the six windows at `t` are
      x : (i, s)    w : (j, s)    u : (i, 0)    v : (j, 0)    bias : (0, j)    output : (i, j),
  decided once over the 256 points. An element of a block sits in the array at block index × block size + its own
  coordinate, axis by axis.
-/
import proofs.«120189_j25752623907395_2_alg».proof.Proof.Gen.KernelIdeal.Frame
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Tile

open Cert.KernelIdeal Cert.KernelIdeal.Gen Idealize.ShloMosaic.ValueIdx

variable {F : FTy → Type} [FloatOps F]
variable (m : (ℓ : Loc nD τ sig) → Buf (Elt F) ℓ)

/-- The six index maps at every point, as arithmetic of the point's number. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- The `x` tile of point `t`: rows of row tile `i`, columns of contraction step `s`. -/
theorem blk0_apply (c : Dev nD) (t : Fin cfg0.N) (a : Fin 1024) (b : Fin 1024) (k : S16384x4096.Idx)
    (h0 : (k 0).val = (t.val / 16) * 1024 + a.val) (h1 : (k 1).val = (t.val % 4) * 1024 + b.val) :
    (iblk m c 0 t : Vec F S1024x1024 .bf16) (ix2 a b) = (V m c main_v10 : S16384x4096.Idx → Elt F .bf16) k := by
  obtain ⟨e00, e01, e10, e11, e20, e21, e30, e31, e40, e41, e50, e51⟩ := idx_facts t
  unfold iblk
  rw [View.read_apply]
  show V m c main_v10 _ = V m c main_v10 _
  congr 1
  funext ax
  apply Fin.ext
  match ax with
  | ⟨0, _⟩ => show win0_0.index t 0 * 1024 + 1 * a.val = (k 0).val; rw [e00, h0]; omega
  | ⟨1, _⟩ => show win0_0.index t 1 * 1024 + 1 * b.val = (k 1).val; rw [e01, h1]; omega

/-- The `w` tile: rows of column tile `j` (the product is `x · wᵀ`), columns of contraction step `s`. -/
theorem blk1_apply (c : Dev nD) (t : Fin cfg0.N) (a : Fin 1024) (b : Fin 1024) (k : S4096x4096.Idx)
    (h0 : (k 0).val = (t.val / 4 % 4) * 1024 + a.val) (h1 : (k 1).val = (t.val % 4) * 1024 + b.val) :
    (iblk m c 1 t : Vec F S1024x1024 .bf16) (ix2 a b) = (V m c main_v11 : S4096x4096.Idx → Elt F .bf16) k := by
  obtain ⟨e00, e01, e10, e11, e20, e21, e30, e31, e40, e41, e50, e51⟩ := idx_facts t
  unfold iblk
  rw [View.read_apply]
  show V m c main_v11 _ = V m c main_v11 _
  congr 1
  funext ax
  apply Fin.ext
  match ax with
  | ⟨0, _⟩ => show win0_1.index t 0 * 1024 + 1 * a.val = (k 0).val; rw [e10, h0]; omega
  | ⟨1, _⟩ => show win0_1.index t 1 * 1024 + 1 * b.val = (k 1).val; rw [e11, h1]; omega

/-- The rank-8 left tile: rows of row tile `i`, all eight columns. -/
theorem blk2_apply (c : Dev nD) (t : Fin cfg0.N) (a : Fin 1024) (b : Fin 8) (k : S16384x8.Idx)
    (h0 : (k 0).val = (t.val / 16) * 1024 + a.val) (h1 : (k 1).val = 0 * 8 + b.val) :
    (iblk m c 2 t : Vec F S1024x8 .f32) (ix2 a b) = (V m c main_v9 : S16384x8.Idx → Elt F .f32) k := by
  obtain ⟨e00, e01, e10, e11, e20, e21, e30, e31, e40, e41, e50, e51⟩ := idx_facts t
  unfold iblk
  rw [View.read_apply]
  show V m c main_v9 _ = V m c main_v9 _
  congr 1
  funext ax
  apply Fin.ext
  match ax with
  | ⟨0, _⟩ => show win0_2.index t 0 * 1024 + 1 * a.val = (k 0).val; rw [e20, h0]; omega
  | ⟨1, _⟩ => show win0_2.index t 1 * 8 + 1 * b.val = (k 1).val; rw [e21, h1]; omega

/-- The rank-8 right tile: rows of column tile `j`, all eight columns. -/
theorem blk3_apply (c : Dev nD) (t : Fin cfg0.N) (a : Fin 1024) (b : Fin 8) (k : S4096x8.Idx)
    (h0 : (k 0).val = (t.val / 4 % 4) * 1024 + a.val) (h1 : (k 1).val = 0 * 8 + b.val) :
    (iblk m c 3 t : Vec F S1024x8 .f32) (ix2 a b) = (V m c main_arg5 : S4096x8.Idx → Elt F .f32) k := by
  obtain ⟨e00, e01, e10, e11, e20, e21, e30, e31, e40, e41, e50, e51⟩ := idx_facts t
  unfold iblk
  rw [View.read_apply]
  show V m c main_arg5 _ = V m c main_arg5 _
  congr 1
  funext ax
  apply Fin.ext
  match ax with
  | ⟨0, _⟩ => show win0_3.index t 0 * 1024 + 1 * a.val = (k 0).val; rw [e30, h0]; omega
  | ⟨1, _⟩ => show win0_3.index t 1 * 8 + 1 * b.val = (k 1).val; rw [e31, h1]; omega

/-- The bias tile: the one row, columns of column tile `j`. -/
theorem blk4_apply (c : Dev nD) (t : Fin cfg0.N) (a : Fin 1) (b : Fin 1024) (k : S1x4096.Idx)
    (h0 : (k 0).val = 0 * 1 + a.val) (h1 : (k 1).val = (t.val / 4 % 4) * 1024 + b.val) :
    (iblk m c 4 t : Vec F S1x1024 .f32) (ix2 a b) = (V m c main_v12 : S1x4096.Idx → Elt F .f32) k := by
  obtain ⟨e00, e01, e10, e11, e20, e21, e30, e31, e40, e41, e50, e51⟩ := idx_facts t
  unfold iblk
  rw [View.read_apply]
  show V m c main_v12 _ = V m c main_v12 _
  congr 1
  funext ax
  apply Fin.ext
  match ax with
  | ⟨0, _⟩ => show win0_4.index t 0 * 1 + 1 * a.val = (k 0).val; rw [e40, h0]; omega
  | ⟨1, _⟩ => show win0_4.index t 1 * 1024 + 1 * b.val = (k 1).val; rw [e41, h1]; omega

end Cert.KernelIdeal.Tile

end
-- ==== Proof.SumLaws.lean ====
/-
  The two laws that join the kernel's arrangement of the arithmetic to the reference's, on the extended reals.

  (1) A sum over 4096 contraction indices is the sum of its four consecutive blocks of 1024, added block after block.
      Only commutativity and associativity of `+` are used: it holds whatever the terms are.
  (2) A factor that is a non-negative REAL passes through a finite sum: `(∑ f) · c = ∑ (f · c)`. On the extended reals
      distributivity fails in general (`(⊤ + ⊥) · c`), but not for such a `c`. The kernel multiplies each rank-8
      coefficient by the scaling `2` and by the token mask (`0` or `1`) before the rank sum; the reference multiplies the
      rank sum afterwards. Both factors are non-negative reals, so the two agree for ALL extended-real inputs.
-/
import Idealize.ShloMosaic.PureOps.Ideal
import Idealize.ShloMosaic.PureOps.Ideal.Laws

noncomputable section

open Idealize.ShloMosaic

namespace Cert.SumLaws

/-- Over the naturals below 4096: the first 1024, then the next, and so on. -/
theorem range_four_blocks {M : Type*} [AddCommMonoid M] (g : ℕ → M) :
    ∑ x ∈ Finset.range (1024 + 1024 + 1024 + 1024), g x
      = (((∑ x ∈ Finset.range 1024, g x) + ∑ x ∈ Finset.range 1024, g (1024 + x))
          + ∑ x ∈ Finset.range 1024, g (1024 + 1024 + x)) + ∑ x ∈ Finset.range 1024, g (1024 + 1024 + 1024 + x) := by
  rw [Finset.sum_range_add, Finset.sum_range_add, Finset.sum_range_add]

/-- The terms of a sum over `Fin 4096` as a function of the natural index (zero past the end). -/
def onNat {M : Type*} [AddCommMonoid M] (f : Fin 4096 → M) (n : ℕ) : M := if h : n < 4096 then f ⟨n, h⟩ else 0

theorem onNat_val {M : Type*} [AddCommMonoid M] (f : Fin 4096 → M) (k : Fin 4096) : onNat f k.val = f k := by
  unfold onNat; rw [dif_pos k.isLt]

/-- (1) Four blocks of 1024: `e b l` is the `l`-th index of block `b`. -/
theorem sum_four_blocks {M : Type*} [AddCommMonoid M] (f : Fin 4096 → M) (e : Fin 4 → Fin 1024 → Fin 4096)
    (he : ∀ b l, (e b l).val = 1024 * b.val + l.val) :
    ∑ k, f k = (((∑ l, f (e 0 l)) + ∑ l, f (e 1 l)) + ∑ l, f (e 2 l)) + ∑ l, f (e 3 l) := by
  have hf : ∀ k : Fin 4096, f k = onNat f k.val := fun k => (onNat_val f k).symm
  generalize onNat f = g at hf
  have hblk : ∀ (b : Fin 4) (d : ℕ), d = 1024 * b.val →
      ∑ l : Fin 1024, f (e b l) = ∑ x ∈ Finset.range 1024, g (d + x) := fun b d hd => by
    rw [← Fin.sum_univ_eq_sum_range (fun x => g (d + x)) 1024]
    exact Finset.sum_congr rfl fun l _ => by rw [hf, he, hd]
  rw [hblk 0 0 rfl, hblk 1 1024 rfl, hblk 2 (1024 + 1024) rfl, hblk 3 (1024 + 1024 + 1024) rfl]
  simp only [Nat.zero_add]
  rw [← range_four_blocks g, ← Fin.sum_univ_eq_sum_range g (1024 + 1024 + 1024 + 1024)]
  exact Finset.sum_congr rfl fun k _ => hf k

/-- (2) A non-negative real factor passes through a finite sum of extended reals. -/
theorem sum_mul_const {ι : Type*} (s : Finset ι) (f : ι → EReal) {c : EReal} (h0 : 0 ≤ c) (ht : c ≠ ⊤) :
    (∑ i ∈ s, f i) * c = ∑ i ∈ s, f i * c := by
  classical
  refine Finset.induction_on s (by simp) fun a s ha ih => ?_
  rw [Finset.sum_insert ha, Finset.sum_insert ha, EReal.right_distrib_of_nonneg_of_ne_top h0 ht, ih]

/-- The rank sum with the scaling `c` and the mask `g` inside each term is the rank sum scaled and masked afterwards. -/
theorem scale_mask_through_sum {ι : Type*} [Fintype ι] (a b : ι → EReal) {c g : EReal}
    (hc0 : 0 ≤ c) (hct : c ≠ ⊤) (hg0 : 0 ≤ g) (hgt : g ≠ ⊤) :
    ∑ r, ((a r * c) * g) * b r = ((∑ r, a r * b r) * c) * g := by
  rw [sum_mul_const _ _ hc0 hct, sum_mul_const _ _ hg0 hgt]
  refine Finset.sum_congr rfl fun r _ => ?_
  rw [mul_right_comm (a r * c) g (b r), mul_right_comm (a r) c (b r)]

/-- The scaling literal is the real `2`. -/
theorem two_eq : Ideal.ofBits .f32 0x40000000#32 = ((2 : ℝ) : EReal) := by
  simp [Ideal.ofBits, Ideal.ieee]
  rw [← EReal.coe_mul]
  norm_num

theorem two_nonneg : (0 : EReal) ≤ Ideal.ofBits .f32 0x40000000#32 := by
  rw [two_eq]; exact EReal.coe_nonneg.mpr (by norm_num)

theorem two_ne_top : Ideal.ofBits .f32 0x40000000#32 ≠ (⊤ : EReal) := by
  rw [two_eq]; exact EReal.coe_ne_top _

/-- The mask — a one-bit word read as a float — is the real `0` or `1`. -/
theorem mask_nonneg (b : BitVec 1) : (0 : EReal) ≤ FloatOps.uitofp (F := Ideal) .f32 b :=
  EReal.coe_nonneg.mpr (Nat.cast_nonneg _)

theorem mask_ne_top (b : BitVec 1) : FloatOps.uitofp (F := Ideal) .f32 b ≠ (⊤ : EReal) :=
  EReal.coe_ne_top _

end Cert.SumLaws

end
-- ==== Proof.Spec.lean ====
/-
  THE SPECIFICATION: the result as one function of the six argument arrays, index by index, over the extended reals.

  With `x[b,s,·]` a token's features, `W` the frozen weight, `A`, `B` the rank-8 factors, `ids` the token ids:

      G[b,s,o] = (∑ₖ x[b,s,k]·W[o,k] + bias[o]) + ((∑ᵣ (∑ₖ x[b,s,k]·A[r,k])·B[o,r]) · 2) · mask(ids[b,s]),

  where `mask` is `1` on the compression token (id 7) and `0` elsewhere. This is the reference's own arrangement.
  The kernel arranges the same arithmetic differently — the first sum in four blocks of 1024 added in order from zero,
  the scaling and the mask applied to each rank-8 coefficient before the rank sum — and `kernel_form_eq` says the two
  arrangements are one extended real, for every input.
-/
import proofs.«120189_j25752623907395_2_alg».proof.Proof.SumLaws
import Idealize.ShloMosaic.Lib.ValueIdx

noncomputable section

open Idealize.ShloMosaic Idealize.ShloMosaic.ValueIdx

namespace Cert.Spec

/-- The scaling `alpha / r = 2`, as the literal both programs print. -/
abbrev two : EReal := Ideal.ofBits .f32 0x40000000#32

/-- The token mask: the comparison with the compression token's id, read as a float. -/
abbrev mask (w : BitVec 32) : EReal := FloatOps.uitofp (F := Ideal) .f32 (IntOp.cmpi .eq w 7#32)

/-- Contraction index `l` of block `b` of four. -/
abbrev kidx (b : Fin 4) (l : Fin 1024) : Fin 4096 := ⟨1024 * b.val + l.val, by have := b.isLt; have := l.isLt; omega⟩

variable (x : (⟨3, ![4, 4096, 4096]⟩ : Shape).Idx → EReal) (ids : (⟨2, ![4, 4096]⟩ : Shape).Idx → BitVec 32)
  (W : (⟨2, ![4096, 4096]⟩ : Shape).Idx → EReal) (bias : (⟨1, ![4096]⟩ : Shape).Idx → EReal)
  (A : (⟨2, ![8, 4096]⟩ : Shape).Idx → EReal) (B : (⟨2, ![4096, 8]⟩ : Shape).Idx → EReal)

/-- The result at batch `b`, token `s`, output feature `o`. -/
def G (b : Fin 4) (s : Fin 4096) (o : Fin 4096) : EReal :=
  (∑ k : Fin 4096, x (ix3 b s k) * W (ix2 o k) + bias (ix1 o))
    + ((∑ r : Fin 8, (∑ k : Fin 4096, x (ix3 b s k) * A (ix2 r k)) * B (ix2 o r)) * two) * mask (ids (ix2 b s))

/-- The kernel's arrangement is the specification. -/
theorem kernel_form_eq (b : Fin 4) (s : Fin 4096) (o : Fin 4096) :
    (((((0 + ∑ l : Fin 1024, x (ix3 b s (kidx 0 l)) * W (ix2 o (kidx 0 l)))
            + ∑ l : Fin 1024, x (ix3 b s (kidx 1 l)) * W (ix2 o (kidx 1 l)))
          + ∑ l : Fin 1024, x (ix3 b s (kidx 2 l)) * W (ix2 o (kidx 2 l)))
        + ∑ l : Fin 1024, x (ix3 b s (kidx 3 l)) * W (ix2 o (kidx 3 l)))
      + bias (ix1 o))
      + ∑ r : Fin 8, (((∑ k : Fin 4096, x (ix3 b s k) * A (ix2 r k)) * two) * mask (ids (ix2 b s))) * B (ix2 o r)
    = G x ids W bias A B b s o := by
  unfold G
  rw [zero_add, ← Cert.SumLaws.sum_four_blocks (fun k => x (ix3 b s k) * W (ix2 o k)) kidx (fun _ _ => rfl),
    Cert.SumLaws.scale_mask_through_sum _ _ Cert.SumLaws.two_nonneg Cert.SumLaws.two_ne_top
      (Cert.SumLaws.mask_nonneg _) (Cert.SumLaws.mask_ne_top _)]

end Cert.Spec

end
-- ==== Proof.HostPre.lean ====
/-
  The arrays the region finds, read at an index over the extended reals.

  Before the region the host flattens the batch and token axes (`row = 4096·b + s`), rounds `x` and `W` to bf16 (the
  identity on the extended reals), views the bias as one row, and computes the rank-8 coefficients
      u[row, r] = ((∑ₖ x[b,s,k] · A[r,k]) · 2) · mask(ids[b,s]).
-/
import proofs.«120189_j25752623907395_2_alg».proof.Proof.Gen.KernelIdeal.Frame
import proofs.«120189_j25752623907395_2_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.Tile

open Cert.KernelIdeal Cert.KernelIdeal.Gen Idealize.ShloMosaic.ValueIdx Idealize.ShloMosaic.StableHlo

variable (m : (ℓ : Loc nD τ sig) → Buf (Elt Ideal) ℓ)

/-- The six arguments as launched, typed as arrays of extended reals (the token ids: 32-bit words). -/
def argX (c : Dev nD) : S4x4096x4096.Idx → EReal := m ((c : Thread nD τ).loc main_arg0)
def argIds (c : Dev nD) : S4x4096.Idx → BitVec 32 := m ((c : Thread nD τ).loc main_arg1)
def argW (c : Dev nD) : S4096x4096.Idx → EReal := m ((c : Thread nD τ).loc main_arg2)
def argBias (c : Dev nD) : S4096.Idx → EReal := m ((c : Thread nD τ).loc main_arg3)
def argA (c : Dev nD) : S8x4096.Idx → EReal := m ((c : Thread nD τ).loc main_arg4)
def argB (c : Dev nD) : S4096x8.Idx → EReal := m ((c : Thread nD τ).loc main_arg5)

/-- The five arrays the region reads, as it finds them. -/
def regX (c : Dev nD) : S16384x4096.Idx → EReal := V m c main_v10
def regW (c : Dev nD) : S4096x4096.Idx → EReal := V m c main_v11
def regU (c : Dev nD) : S16384x8.Idx → EReal := V m c main_v9
def regB (c : Dev nD) : S4096x8.Idx → EReal := V m c main_arg5
def regBias (c : Dev nD) : S1x4096.Idx → EReal := V m c main_v12

/-- The flattened row of batch `b`, token `s`. -/
abbrev rowOf (b : Fin 4) (s : Fin 4096) : Fin 16384 := ⟨4096 * b.val + s.val, by have := b.isLt; have := s.isLt; omega⟩

/-- The flattening `[4, 4096, 4096] → [16384, 4096]` read at `(row, k)`. -/
theorem flat_apply (x : S4x4096x4096.Idx → EReal) (b : Fin 4) (s k : Fin 4096) :
    shapeCast S16384x4096 x shapeCasts_S4x4096x4096_S16384x4096 (ix2 (rowOf b s) k) = x (ix3 b s k) :=
  shapeCast_apply x _ (ix2 (rowOf b s) k) (ix3 b s k) (by
    rw [Shape.rowMajor_val_three, Shape.rowMajor_val_two]
    show (b.val * 4096 + s.val) * 4096 + k.val = (4096 * b.val + s.val) * 4096 + k.val
    omega)

/-- `x` as the region finds it. -/
theorem X_apply (c : Dev nD) (b : Fin 4) (s k : Fin 4096) :
    regX m c (ix2 (rowOf b s) k) = argX m c (ix3 b s k) := by
  have e : regX m c
      = truncf (F := Ideal) .bf16 (shapeCast S16384x4096 (argX m c) shapeCasts_S4x4096x4096_S16384x4096) bitsLt_bf16_f32 := by
    show StableHlo.after hostOps0 (fun b => m (c, b)) (Proc.devRef .tc main_v10) = _
    after_results; rfl
  rw [e]
  exact flat_apply _ b s k

/-- `W` as the region finds it. -/
theorem W_apply (c : Dev nD) (i : S4096x4096.Idx) :
    regW m c i = argW m c i := by
  have e : regW m c = truncf (F := Ideal) .bf16 (argW m c) bitsLt_bf16_f32 := by
    show StableHlo.after hostOps0 (fun b => m (c, b)) (Proc.devRef .tc main_v11) = _
    after_results; rfl
  rw [e]; rfl

/-- The bias row as the region finds it. -/
theorem bias_apply (c : Dev nD) (o : Fin 4096) :
    regBias m c (ix2 (0 : Fin 1) o) = argBias m c (ix1 o) := by
  have e : regBias m c = shapeCast S1x4096 (argBias m c) shapeCasts_S4096_S1x4096 := by
    show StableHlo.after hostOps0 (fun b => m (c, b)) (Proc.devRef .tc main_v12) = _
    after_results; rfl
  rw [e]
  exact shapeCast_apply _ _ (ix2 (0 : Fin 1) o) (ix1 o) (by
    rw [Shape.rowMajor_val_one, Shape.rowMajor_val_two]
    show o.val = 0 * 4096 + o.val
    omega)

/-- The rank-8 right factor is not touched before the region. -/
theorem B_eq (c : Dev nD) : regB m c = argB m c := V_main_arg5 m c

/-- The host's feature contraction `[16384, 4096] × [8, 4096]ᵀ` at `(row, r)`. -/
theorem hostdot_lhs0 (j : S16384x8.Idx) (k : dot_S16384x4096_S8x4096_S16384x8_1_1_0_0_n_n.contr.Idx) : (dot_S16384x4096_S8x4096_S16384x8_1_1_0_0_n_n.lhsIdx j k 0).val = (j 0).val := by
  unfold DotDims.lhsIdx
  rw [dif_neg (show ¬(0 : Fin S16384x4096.rank) ∈ dot_S16384x4096_S8x4096_S16384x8_1_1_0_0_n_n.lhsBatch by decide), dif_pos (show (0 : Fin S16384x4096.rank) ∈ dot_S16384x4096_S8x4096_S16384x8_1_1_0_0_n_n.lhsNonContracting by decide)]
  rfl
theorem hostdot_rhs0 (j : S16384x8.Idx) (k : dot_S16384x4096_S8x4096_S16384x8_1_1_0_0_n_n.contr.Idx) : (dot_S16384x4096_S8x4096_S16384x8_1_1_0_0_n_n.rhsIdx j k 0).val = (j 1).val := by
  unfold DotDims.rhsIdx
  rw [dif_neg (show ¬(0 : Fin S8x4096.rank) ∈ dot_S16384x4096_S8x4096_S16384x8_1_1_0_0_n_n.rhsBatch by decide), dif_pos (show (0 : Fin S8x4096.rank) ∈ dot_S16384x4096_S8x4096_S16384x8_1_1_0_0_n_n.rhsNonContracting by decide)]
  rfl
theorem hostdot_apply (x : FVec Ideal S16384x4096 .f32) (a : FVec Ideal S8x4096 .f32) (R : Fin 16384) (r : Fin 8) :
    Host.dotGeneral dot_S16384x4096_S8x4096_S16384x8_1_1_0_0_n_n none x a (ix2 R r) = ∑ k : Fin 4096, x (ix2 R k) * a (ix2 r k) := by
  simp only [Host.dotGeneral]
  rw [Ideal.dotGeneral_apply, ← Equiv.sum_comp (ValueIdx.contrEquiv1 dot_S16384x4096_S8x4096_S16384x8_1_1_0_0_n_n 4096 rfl rfl).symm]
  refine Finset.sum_congr rfl fun k _ => ?_
  have hk := ValueIdx.contrEquiv1_symm_val dot_S16384x4096_S8x4096_S16384x8_1_1_0_0_n_n 4096 rfl rfl k
  have el : dot_S16384x4096_S8x4096_S16384x8_1_1_0_0_n_n.lhsIdx (ix2 R r) ((ValueIdx.contrEquiv1 dot_S16384x4096_S8x4096_S16384x8_1_1_0_0_n_n 4096 rfl rfl).symm k) = ix2 R k := funext fun ax => Fin.ext (by
    match ax with
    | ⟨0, _⟩ => exact hostdot_lhs0 _ _
    | ⟨1, _⟩ => exact (dot_S16384x4096_S8x4096_S16384x8_1_1_0_0_n_n.lhsIdx_val_of_single rfl _ _).trans hk)
  have er : dot_S16384x4096_S8x4096_S16384x8_1_1_0_0_n_n.rhsIdx (ix2 R r) ((ValueIdx.contrEquiv1 dot_S16384x4096_S8x4096_S16384x8_1_1_0_0_n_n 4096 rfl rfl).symm k) = ix2 r k := funext fun ax => Fin.ext (by
    match ax with
    | ⟨0, _⟩ => exact hostdot_rhs0 _ _
    | ⟨1, _⟩ => exact (dot_S16384x4096_S8x4096_S16384x8_1_1_0_0_n_n.rhsIdx_val_of_single rfl _ _).trans hk)
  rw [el, er]

/-- The mask column `[4, 4096] → [16384, 1] → [16384, 8]` at `(row, r)` is the mask of `(b, s)`. -/
theorem maskcol_apply (g : S4x4096.Idx → EReal) (b : Fin 4) (s : Fin 4096) (r : Fin 8) :
    broadcastInDim S16384x8 ![0, 1] bcast_S16384x1_S16384x8_0_1 (shapeCast S16384x1 g shapeCasts_S4x4096_S16384x1) (ix2 (rowOf b s) r)
      = g (ix2 b s) := by
  refine (broadcastInDim_apply _ bcast_S16384x1_S16384x8_0_1 _ (ix2 (rowOf b s) r) (ix2 (rowOf b s) (0 : Fin 1)) (fun ax => ?_)).trans ?_
  · match ax with
    | ⟨0, _⟩ => show (rowOf b s).val = if (16384 : Nat) = 1 then 0 else (rowOf b s).val; rw [if_neg (by decide)]
    | ⟨1, _⟩ => show 0 = if (1 : Nat) = 1 then 0 else r.val; rw [if_pos rfl]
  · exact shapeCast_apply g _ (ix2 (rowOf b s) (0 : Fin 1)) (ix2 b s) (by
      rw [Shape.rowMajor_val_two, Shape.rowMajor_val_two]
      show b.val * 4096 + s.val = (4096 * b.val + s.val) * 1 + 0
      omega)

/-- The rank-8 coefficients as the region finds them. -/
theorem U_apply (c : Dev nD) (b : Fin 4) (s : Fin 4096) (r : Fin 8) :
    regU m c (ix2 (rowOf b s) r)
      = ((∑ k : Fin 4096, argX m c (ix3 b s k) * argA m c (ix2 r k)) * Cert.Spec.two)
          * Cert.Spec.mask (argIds m c (ix2 b s)) := by
  have e : regU m c
      = mulf (F := Ideal) (mulf (F := Ideal) (Host.dotGeneral (F := Ideal) (φ₁ := .f32) (φ₂ := .f32) dot_S16384x4096_S8x4096_S16384x8_1_1_0_0_n_n none
              (shapeCast S16384x4096 (argX m c) shapeCasts_S4x4096x4096_S16384x4096)
              (argA m c))
            (broadcastInDim S16384x8 ![] bcast_S_S16384x8 (constant (F := Ideal) S_ .f32 0x40000000#32)))
          (broadcastInDim S16384x8 ![0, 1] bcast_S16384x1_S16384x8_0_1
            (shapeCast S16384x1
              (uitofp (F := Ideal) .f32 (cmpi .eq (argIds m c)
                (broadcastInDim S4x4096 ![] bcast_S_S4x4096 (constantI S_ 32 7#32))))
              shapeCasts_S4x4096_S16384x1)) := by
    show StableHlo.after hostOps0 (fun b => m (c, b)) (Proc.devRef .tc main_v9) = _
    after_results; rfl
  rw [e, mulf_apply, mulf_apply, maskcol_apply, hostdot_apply]
  simp only [flat_apply]
  rfl

end Cert.KernelIdeal.Tile

end
-- ==== Proof.KernelValue.lean ====
/-
  The kernel's result array over the extended reals.

  `Yat` is the value at row `R`, column `o` of the region's 16384 × 4096 output: the four partial products of the
  contraction added in order from zero, then the bias, then the rank-8 product. Every write-back point (the last of an
  output tile's four points) flushes exactly its tile of this one function (`flushed_eq`), the tiles cover the array
  (`covered`), so the array ends holding it (`final`); the host's last operation views the array as [4, 4096, 4096].
-/
import proofs.«120189_j25752623907395_2_alg».proof.Proof.Steps
import proofs.«120189_j25752623907395_2_alg».proof.Proof.PayIdx
import proofs.«120189_j25752623907395_2_alg».proof.Proof.Blocks
import proofs.«120189_j25752623907395_2_alg».proof.Proof.HostPre

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Idealize.ShloMosaic.StableHlo
open Cert.Spec (kidx)

variable (m : (ℓ : Loc nD τ sig) → Buf (Elt Ideal) ℓ) (ρ : Dev nD → PrngReg)

/-- The output at row `R`, column `o`, from the five arrays the region reads. -/
def Yat (X : S16384x4096.Idx → EReal) (Wt : S4096x4096.Idx → EReal) (U : S16384x8.Idx → EReal) (Bm : S4096x8.Idx → EReal)
    (bias : S1x4096.Idx → EReal) (R : Fin 16384) (o : Fin 4096) : EReal :=
  (((((0 + ∑ l : Fin 1024, X (ix2 R (kidx 0 l)) * Wt (ix2 o (kidx 0 l)))
          + ∑ l : Fin 1024, X (ix2 R (kidx 1 l)) * Wt (ix2 o (kidx 1 l)))
        + ∑ l : Fin 1024, X (ix2 R (kidx 2 l)) * Wt (ix2 o (kidx 2 l)))
      + ∑ l : Fin 1024, X (ix2 R (kidx 3 l)) * Wt (ix2 o (kidx 3 l)))
    + bias (ix2 (0 : Fin 1) o))
    + ∑ r : Fin 8, U (ix2 R r) * Bm (ix2 o r)

/-- The whole output array as one function of them. -/
def Y (X : S16384x4096.Idx → EReal) (Wt : S4096x4096.Idx → EReal) (U : S16384x8.Idx → EReal) (Bm : S4096x8.Idx → EReal)
    (bias : S1x4096.Idx → EReal) : S16384x4096.Idx → EReal :=
  fun i => Yat X Wt U Bm bias ⟨(i 0).val, (i 0).isLt⟩ ⟨(i 1).val, (i 1).isLt⟩

/-- It, of the arrays as the region finds them. -/
abbrev Yreg (c : Dev nD) : S16384x4096.Idx → EReal := Y (regX m c) (regW m c) (regU m c) (regB m c) (regBias m c)

/-- An element `(p, q)` of the output tile of point `t` sits at row `R`, column `O` of the array. -/
theorem Yreg_at_tile (c : Dev nD) (t : Fin cfg0.N) (p q : Fin 1024) (R : Fin 16384) (O : Fin 4096)
    (hR : R.val = t.val / 16 * 1024 + p.val) (hO : O.val = t.val / 4 % 4 * 1024 + q.val) :
    Yreg m c (((cfg0.win 5).blk t).view.emb (ix2 p q)) = Yat (regX m c) (regW m c) (regU m c) (regB m c) (regBias m c) R O := by
  obtain ⟨-, -, -, -, -, -, -, -, -, -, e50, e51⟩ := idx_facts t
  show Yat _ _ _ _ _ _ _ = _
  refine congrArg₂ (Yat _ _ _ _ _) (Fin.ext ?_) (Fin.ext ?_)
  · show win0_5.index t 0 * 1024 + 1 * p.val = R.val; rw [e50, hR]; omega
  · show win0_5.index t 1 * 1024 + 1 * q.val = O.val; rw [e51, hO]; omega

/-- One step's partial product over the step's tiles is that block of the contraction over the arrays, once each
    tile element is located in its array. -/
theorem step_sum (xt wt : Vec Ideal S1024x1024 .bf16) (X : S16384x4096.Idx → EReal) (Wt : S4096x4096.Idx → EReal)
    (kb : Fin 4) (p q : Fin 1024) (R : Fin 16384) (O : Fin 4096)
    (hx : ∀ l : Fin 1024, xt (ix2 p l) = X (ix2 R (kidx kb l))) (hw : ∀ l : Fin 1024, wt (ix2 q l) = Wt (ix2 O (kidx kb l))) :
    ∑ l : Fin 1024, xt (ix2 p l) * wt (ix2 q l) = ∑ l : Fin 1024, X (ix2 R (kidx kb l)) * Wt (ix2 O (kidx kb l)) :=
  Finset.sum_congr rfl fun l _ => by rw [hx, hw]

/-- The same for the rank-8 product. -/
theorem rank_sum (ut vt : Vec Ideal S1024x8 .f32) (U : S16384x8.Idx → EReal) (Bm : S4096x8.Idx → EReal)
    (p q : Fin 1024) (R : Fin 16384) (O : Fin 4096)
    (hu : ∀ r : Fin 8, ut (ix2 p r) = U (ix2 R r)) (hv : ∀ r : Fin 8, vt (ix2 q r) = Bm (ix2 O r)) :
    ∑ r : Fin 8, ut (ix2 p r) * vt (ix2 q r) = ∑ r : Fin 8, U (ix2 R r) * Bm (ix2 O r) :=
  Finset.sum_congr rfl fun r _ => by rw [hu, hv]

/-- WHAT A WRITE-BACK POINT FLUSHES is its tile of `Yreg`. -/
theorem flushed_eq (c : Dev nD) (t : Fin cfg0.N) (hf : (cfg0.win 5).flush t = true) :
    (dats m 0 c).flushed 5 t = ((cfg0.win 5).blk t).view.read (Elt Ideal) (Yreg m c) := by
  have h3 : t.val % 4 = 3 := (flush0_5 t).mp hf
  have hN : t.val < 256 := lt_of_lt_of_eq t.isLt (show cfg0.N = 256 from N_0)
  show (cfg0.win 5).cut (grid0.coords t) ((dats m 0 c).after 5 t) = _
  rw [after0_5, tile_at_last m c t h3]
  funext j
  obtain ⟨p, q, rfl⟩ : ∃ (p q : Fin 1024), j = ix2 p q := ⟨j 0, j 1, eq_ix2 j⟩
  rw [View.read_apply]
  obtain ⟨R, hR⟩ : ∃ R : Fin 16384, R.val = t.val / 16 * 1024 + p.val := ⟨⟨_, by have := p.isLt; omega⟩, rfl⟩
  obtain ⟨O, hO⟩ : ∃ O : Fin 4096, O.val = t.val / 4 % 4 * 1024 + q.val := ⟨⟨_, by have := q.isLt; omega⟩, rfl⟩
  refine (tile_value (iblk m c 0 (prev (prev (prev t)))) (iblk m c 1 (prev (prev (prev t))))
    (iblk m c 0 (prev (prev t))) (iblk m c 1 (prev (prev t))) (iblk m c 0 (prev t)) (iblk m c 1 (prev t))
    (iblk m c 0 t) (iblk m c 1 t) (iblk m c 2 t) (iblk m c 3 t) (iblk m c 4 t) p q).trans ?_
  refine Eq.trans ?_ (Yreg_at_tile m c t p q R O hR hO).symm
  unfold Yat
  refine congrArg₂ (· + ·) ?_ ?_
  · refine congrArg₂ (· + ·) ?_ ?_
    · refine congrArg₂ (· + ·) ?_ ?_
      · refine congrArg₂ (· + ·) ?_ ?_
        · refine congrArg₂ (· + ·) ?_ ?_
          · exact congrArg (0 + ·) (step_sum (iblk m c 0 (prev (prev (prev t)))) (iblk m c 1 (prev (prev (prev t)))) (regX m c) (regW m c) 0 p q R O
              (fun l => blk0_apply m c (prev (prev (prev t))) p l (ix2 R (kidx 0 l))
                (by show R.val = (t.val - 1 - 1 - 1) / 16 * 1024 + p.val; omega)
                (by show 1024 * (0 : Fin 4).val + l.val = (t.val - 1 - 1 - 1) % 4 * 1024 + l.val; have : ((0 : Fin 4).val) = 0 := rfl; omega))
              (fun l => blk1_apply m c (prev (prev (prev t))) q l (ix2 O (kidx 0 l))
                (by show O.val = (t.val - 1 - 1 - 1) / 4 % 4 * 1024 + q.val; omega)
                (by show 1024 * (0 : Fin 4).val + l.val = (t.val - 1 - 1 - 1) % 4 * 1024 + l.val; have : ((0 : Fin 4).val) = 0 := rfl; omega)))
          · exact step_sum (iblk m c 0 (prev (prev t))) (iblk m c 1 (prev (prev t))) (regX m c) (regW m c) 1 p q R O
              (fun l => blk0_apply m c (prev (prev t)) p l (ix2 R (kidx 1 l))
                (by show R.val = (t.val - 1 - 1) / 16 * 1024 + p.val; omega)
                (by show 1024 * (1 : Fin 4).val + l.val = (t.val - 1 - 1) % 4 * 1024 + l.val; have : ((1 : Fin 4).val) = 1 := rfl; omega))
              (fun l => blk1_apply m c (prev (prev t)) q l (ix2 O (kidx 1 l))
                (by show O.val = (t.val - 1 - 1) / 4 % 4 * 1024 + q.val; omega)
                (by show 1024 * (1 : Fin 4).val + l.val = (t.val - 1 - 1) % 4 * 1024 + l.val; have : ((1 : Fin 4).val) = 1 := rfl; omega))
        · exact step_sum (iblk m c 0 (prev t)) (iblk m c 1 (prev t)) (regX m c) (regW m c) 2 p q R O
              (fun l => blk0_apply m c (prev t) p l (ix2 R (kidx 2 l))
                (by show R.val = (t.val - 1) / 16 * 1024 + p.val; omega)
                (by show 1024 * (2 : Fin 4).val + l.val = (t.val - 1) % 4 * 1024 + l.val; have : ((2 : Fin 4).val) = 2 := rfl; omega))
              (fun l => blk1_apply m c (prev t) q l (ix2 O (kidx 2 l))
                (by show O.val = (t.val - 1) / 4 % 4 * 1024 + q.val; omega)
                (by show 1024 * (2 : Fin 4).val + l.val = (t.val - 1) % 4 * 1024 + l.val; have : ((2 : Fin 4).val) = 2 := rfl; omega))
      · exact step_sum (iblk m c 0 t) (iblk m c 1 t) (regX m c) (regW m c) 3 p q R O
              (fun l => blk0_apply m c t p l (ix2 R (kidx 3 l))
                (by show R.val = t.val / 16 * 1024 + p.val; omega)
                (by show 1024 * (3 : Fin 4).val + l.val = t.val % 4 * 1024 + l.val; have : ((3 : Fin 4).val) = 3 := rfl; omega))
              (fun l => blk1_apply m c t q l (ix2 O (kidx 3 l))
                (by show O.val = t.val / 4 % 4 * 1024 + q.val; omega)
                (by show 1024 * (3 : Fin 4).val + l.val = t.val % 4 * 1024 + l.val; have : ((3 : Fin 4).val) = 3 := rfl; omega))
    · exact blk4_apply m c t 0 q (ix2 (0 : Fin 1) O) (by show 0 = 0 * 1 + 0; rfl) hO
  · exact rank_sum (iblk m c 2 t) (iblk m c 3 t) (regU m c) (regB m c) p q R O
      (fun r => blk2_apply m c t p r (ix2 R r) hR (by show r.val = 0 * 8 + r.val; omega))
      (fun r => blk3_apply m c t q r (ix2 O r) hO (by show r.val = 0 * 8 + r.val; omega))

/-- Membership in a point's output tile, coordinate by coordinate. -/
theorem mem_tile (t : Fin cfg0.N) (i : S16384x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v13).slice (win0_5.rect t)).set ↔ _
  rw [View.set_slice_whole, Rect.mem_set_unit]
  exact Iff.rfl

/-- THE COVER: index `(R, o)` is in the tile of the write-back point `16·(R / 1024) + 4·(o / 1024) + 3`. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ : ∃ t : Fin cfg0.N, t.val = 16 * ((i 0).val / 1024) + 4 * ((i 1).val / 1024) + 3 :=
    ⟨⟨_, by rw [show cfg0.N = 256 from N_0]; omega⟩, rfl⟩
  obtain ⟨-, -, -, -, -, -, -, -, -, -, e50, e51⟩ := idx_facts t
  refine ⟨t, (flush0_5 t).mpr (by omega), ?_⟩
  rw [mem_tile]
  intro a
  match a with
  | ⟨0, _⟩ =>
    show win0_5.index t 0 * 1024 ≤ (i 0).val ∧ (i 0).val < win0_5.index t 0 * 1024 + 1024
    rw [e50]; omega
  | ⟨1, _⟩ =>
    show win0_5.index t 1 * 1024 ≤ (i 1).val ∧ (i 1).val < win0_5.index t 1 * 1024 + 1024
    rw [e51]; omega

/-- THE ARRAY after the region is `Yreg`. -/
theorem final (c : Dev nD) : (dats m 0 c).arrAt 5 cfg0.N = Yreg m c :=
  (dats m 0 c).arrAt_eq_of_cover 5 (Yreg m c) (fun t hf => flushed_eq m c t hf) covered

end Cert.KernelIdeal.Tile

end
-- ==== Proof.KernelRun.lean ====
/-
  The kernel's run over the extended reals, read: the result buffer holds the output array viewed as [4, 4096, 4096], whose entry
  `(b, s, o)` is row `4096·b + s`, column `o` of the array — and that is the specification `G[b,s,o]` of the arguments.
-/
import proofs.«120189_j25752623907395_2_alg».proof.Proof.KernelValue

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The result buffer's contents after @main. -/
def result (c : Dev nD) : S4x4096x4096.Idx → EReal :=
  shapeCast S4x4096x4096 (Yreg m c) shapeCasts_S16384x4096_S4x4096x4096

/-- The one host operation after the region views the output array as [4, 4096, 4096]. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  rw [(Pipeline.withArrays_arr spec0 launch0.win.arr_inj c _ _ 5).trans (final m c)]
  rfl

/-- The run: the result buffer at `result`, the six arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c)))⟩)
    (run_main m ρ)

/-- THE KERNEL IS THE SPECIFICATION, entry by entry. -/
theorem result_apply (c : Dev nD) (b : Fin 4) (s o : Fin 4096) :
    result m c (ix3 b s o)
      = Cert.Spec.G (argX m c) (argIds m c) (argW m c) (argBias m c) (argA m c) (argB m c) b s o := by
  have e1 : result m c (ix3 b s o) = Yreg m c (ix2 (rowOf b s) o) :=
    shapeCast_apply (Yreg m c) shapeCasts_S16384x4096_S4x4096x4096 (ix3 b s o) (ix2 (rowOf b s) o) (by
      rw [Shape.rowMajor_val_two, Shape.rowMajor_val_three]
      show (4096 * b.val + s.val) * 4096 + o.val = (b.val * 4096 + s.val) * 4096 + o.val
      omega)
  rw [e1]
  show Yat _ _ _ _ _ (rowOf b s) o = _
  unfold Yat
  simp only [X_apply, W_apply, bias_apply, U_apply, B_eq]
  exact Cert.Spec.kernel_form_eq _ _ _ _ _ _ b s o

end Cert.KernelIdeal.Tile

end
-- ==== Proof.RefValue.lean ====
/-
  The reference is the specification: its result, read operation by operation at the index `(b, s, o)`, is `G[b,s,o]`.

  Each of the reference's two feature contractions reads `x` at `(b, s, k)`; the rank contraction reads the first at
  `(b, s, r)` and `B` at `(o, r)`; the bias is broadcast along `o`; the mask along `(b, s)`.
-/
import proofs.«120189_j25752623907395_2_alg».proof.Proof.Gen.ReferenceIdeal.Read
import proofs.«120189_j25752623907395_2_alg».proof.Proof.Spec

noncomputable section

open Idealize.ShloMosaic Idealize.ShloMosaic.TcCoe Idealize.SL.Sem

namespace Cert.ReferenceIdeal.RefValue

open Cert.ReferenceIdeal Cert.ReferenceIdeal.Read Idealize.ShloMosaic.ValueIdx

theorem result_apply (x0 : (⟨S4x4096x4096, .f32⟩ : BufTy).Contents (Elt Ideal)) (x1 : (⟨S4x4096, .i32⟩ : BufTy).Contents (Elt Ideal))
    (x2 : (⟨S4096x4096, .f32⟩ : BufTy).Contents (Elt Ideal)) (x3 : (⟨S4096, .f32⟩ : BufTy).Contents (Elt Ideal))
    (x4 : (⟨S8x4096, .f32⟩ : BufTy).Contents (Elt Ideal)) (x5 : (⟨S4096x8, .f32⟩ : BufTy).Contents (Elt Ideal))
    (b : Fin 4) (s o : Fin 4096) :
    val_main_v14 (F := Ideal) x0 x1 x2 x3 x4 x5 (ix3 b s o) = Cert.Spec.G x0 x1 x2 x3 x4 x5 b s o := by
  have l0 : ∀ k, lidx_main_v0 (ix3 b s o) k = ix3 b s k := fun k => funext fun a => Fin.ext (by
    match a with | ⟨0, _⟩ => rfl | ⟨1, _⟩ => rfl | ⟨2, _⟩ => rfl)
  have r0 : ∀ k, ridx_main_v0 (ix3 b s o) k = ix2 o k := fun k => funext fun a => Fin.ext (by
    match a with | ⟨0, _⟩ => rfl | ⟨1, _⟩ => rfl)
  have i1 : idx_main_v1 (idx_main_v2 (ix3 b s o)) = ix1 o := funext fun a => Fin.ext (by
    match a with | ⟨0, _⟩ => rfl)
  have l4 : ∀ r k, lidx_main_v4 (lidx_main_v5 (ix3 b s o) r) k = ix3 b s k := fun r k => funext fun a => Fin.ext (by
    match a with | ⟨0, _⟩ => rfl | ⟨1, _⟩ => rfl | ⟨2, _⟩ => rfl)
  have r4 : ∀ r k, ridx_main_v4 (lidx_main_v5 (ix3 b s o) r) k = ix2 r k := fun r k => funext fun a => Fin.ext (by
    match a with | ⟨0, _⟩ => rfl | ⟨1, _⟩ => rfl)
  have r5 : ∀ r, ridx_main_v5 (ix3 b s o) r = ix2 o r := fun r => funext fun a => Fin.ext (by
    match a with | ⟨0, _⟩ => rfl | ⟨1, _⟩ => rfl)
  have i11 : idx_main_v11 (idx_main_v12 (ix3 b s o)) = ix2 b s := funext fun a => Fin.ext (by
    match a with | ⟨0, _⟩ => rfl | ⟨1, _⟩ => rfl)
  rw [val_main_v14_apply, val_main_v3_apply, val_main_v0_apply, val_main_v2_apply, val_main_v1_apply,
    val_main_v13_apply, val_main_v7_apply, val_main_v5_apply, val_main_v6_apply, val_main_cst_apply,
    val_main_v12_apply, val_main_v11_apply, val_main_v10_apply, val_main_v9_apply, val_main_v8_apply, val_main_c_apply]
  simp only [val_main_v4_apply, l0, r0, i1, l4, r4, r5, i11, Ideal.addf_def, Ideal.mulf_def, Ideal.ofBits_def]
  rfl

end Cert.ReferenceIdeal.RefValue

end
-- ==== Proof.lean ====
/-
  A frozen linear layer with a rank-8 low-rank update masked per token, computed by a tiled accelerator kernel, against its
  plain array reference — equal over the extended reals, entry by entry, for every input.

  The kernel flattens batch and token to 16384 rows and walks a 16 × 4 × 4 grid of 1024-wide tiles, the contraction axis
  innermost. For one output tile it zeroes an accumulator, adds the four partial products `x·Wᵀ` of the contraction's
  four blocks in order, and at the last block adds the bias row and the product of the rank-8 coefficients with `Bᵀ`.
  The rank-8 coefficients `((x·Aᵀ)·2)·mask` are computed once on the host before the kernel; the mask is `1` on the
  compression token and `0` elsewhere. The reference computes `(x·Wᵀ + bias) + (((x·Aᵀ)·Bᵀ)·2)·mask`.

  Two laws join the two: a sum over 4096 indices is the ordered sum of its four blocks of 1024 (associativity and
  commutativity of `+`, valid on all extended reals), and the factors `2` and `mask`, being non-negative reals, pass
  through the rank sum (one-sided distributivity, valid on all extended reals for such factors). Rounding to bf16 is the
  identity on the extended reals. So the precondition — finite inputs — is never used: the two results are the same
  extended real at every index whatever the inputs hold.

  The three frame claims are the generated frames (the reference's is its generated run with the result dropped); the
  idealization rewrote no operation, so `preserves` is `True`.
-/
import proofs.«120189_j25752623907395_2_alg».proof.Defs
import proofs.«120189_j25752623907395_2_alg».proof.Proof.Gen.Kernel
import proofs.«120189_j25752623907395_2_alg».proof.Proof.Gen.Kernel.Frame
import proofs.«120189_j25752623907395_2_alg».proof.Proof.Gen.KernelIdeal
import proofs.«120189_j25752623907395_2_alg».proof.Proof.Gen.KernelIdeal.Frame
import proofs.«120189_j25752623907395_2_alg».proof.Proof.Gen.ReferenceIdeal
import proofs.«120189_j25752623907395_2_alg».proof.Proof.Gen.ReferenceIdeal.Run
import proofs.«120189_j25752623907395_2_alg».proof.Proof.Gen.ReferenceIdeal.Read
import proofs.«120189_j25752623907395_2_alg».proof.Proof.Gen.Pre_finite_inputs
import proofs.«120189_j25752623907395_2_alg».proof.Proof.KernelRun
import proofs.«120189_j25752623907395_2_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result buffer at the same array: the
    kernel's is the specification entry by entry, and so is the reference's. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v14_eq, a0, a1, a2, a3, a4, a5]
  funext i
  obtain ⟨b, s, o, rfl⟩ : ∃ (b : Fin 4) (s o : Fin 4096), i = ix3 b s o := ⟨i 0, i 1, i 2, eq_ix3 i⟩
  rw [Cert.ReferenceIdeal.RefValue.result_apply]
  exact (Cert.KernelIdeal.Tile.result_apply m c b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
